-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S600000 32) (main_arg2 : IVec S600000 32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 52
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S600000, .f32⟩
  | .hbm, ⟨7, _⟩ => ⟨S_, .f32⟩
  | .hbm, ⟨8, _⟩ => ⟨S50000, .f32⟩
  | .hbm, ⟨9, _⟩ => ⟨S600000x1, .i32⟩
  | .hbm, ⟨10, _⟩ => ⟨S50000, .f32⟩
  | .hbm, ⟨11, _⟩ => ⟨S_, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S600000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000, .f32⟩
  | .hbm, ⟨42, _⟩ => ⟨S600000x1, .f32⟩
  | .hbm, ⟨43, _⟩ => ⟨S600000x128, .f32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .hbm, ⟨49, _⟩ => ⟨S50000x1, .f32⟩
  | .hbm, ⟨50, _⟩ => ⟨S1x128, .f32⟩
  | .hbm, ⟨51, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_c_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  gather_S50000_S600000x1_S600000_n_0_n_n_0_1_1_wf : GatherDims.WF S50000 S600000x1 S600000 [] [0] [] [0] [] 1 ![1]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v29) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S600000, .f32⟩
  | .hbm, ⟨7, _⟩ => ⟨S_, .f32⟩
  | .hbm, ⟨8, _⟩ => ⟨S50000, .f32⟩
  | .hbm, ⟨9, _⟩ => ⟨S600000x1, .i32⟩
  | .hbm, ⟨10, _⟩ => ⟨S50000, .f32⟩
  | .hbm, ⟨11, _⟩ => ⟨S_, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S600000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S_, .f32⟩
  | .hbm, ⟨39, _⟩ => ⟨S50000x128, .f32⟩
  | .hbm, ⟨40, _⟩ => ⟨S600000x1, .i32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call2_cst : Ref sig .tc := ⟨.hbm, 52, rfl⟩
abbrev main_call2_v0 : Ref sig .tc := ⟨.hbm, 53, rfl⟩
abbrev main_v33 : Ref sig .tc := ⟨.hbm, 54, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The graph convolution's host stages, as functions of the argument arrays.

  Five arrays come in: node features (50000 × 128), an edge list given as two columns of 600000 index words
  (sources and destinations), a 128 × 128 weight and a bias of length 128.

  * `deg ix`: a node's degree through the index column `ix` — a one accumulated for every edge whose word names
    the node — clamped below by one.
  * `srcCol src`: the sources as a 600000 × 1 column, a negative word first wrapped by the node count.
  * `agg feat src dst`: for every edge the source's feature row times the reciprocal square root of the source's
    out-degree, accumulated into the destination's row.

  The dense stage that follows (product with the weight, scaling by the reciprocal square root of the in-degree,
  bias, clamp at zero) is stated index by index in `out`.
-/
import proofs.«166429_j51032801411439_2_alg».proof.Proof.Gen.KernelIdeal
import Idealize.ShloMosaic.Lib.ValueIdx

noncomputable section

namespace Cert.Conv

open Idealize.ShloMosaic Idealize.ShloMosaic.ValueIdx Cert.KernelIdeal Cert.KernelIdeal.Facts₀ Cert.KernelIdeal.Facts
open scoped BigOperators

variable {F : FTy → Type} [FloatOps F]

/-- A node's degree through a column of index words, clamped below by one. -/
def deg (ix : (⟨S600000, .i32⟩ : BufTy).Contents (Elt F)) : (⟨S50000, .f32⟩ : BufTy).Contents (Elt F) :=
  maximumf (broadcastInDim S50000 ![] bcast_S_S50000 (id (constant S_ .f32 0x3F800000#32)))
    (Host.scatterAdd scatter_S50000_S600000x1_S600000_n_0_0_1
      (broadcastInDim S50000 ![] bcast_S_S50000 (constant S_ .f32 0x00000000#32))
      (broadcastInDim S600000x1 ![0] bcast_S600000_S600000x1_0 ix)
      (broadcastInDim S600000 ![] bcast_S_S600000 (constant S_ .f32 0x3F800000#32)))

/-- The source words as a column, a negative word wrapped by the node count. -/
def srcCol (src : (⟨S600000, .i32⟩ : BufTy).Contents (Elt F)) : (⟨S600000x1, .i32⟩ : BufTy).Contents (Elt F) :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 50000#32))) src)

/-- The messages: each edge's source row times the reciprocal square root of the source's out-degree. -/
def msgs (feat : (⟨S50000x128, .f32⟩ : BufTy).Contents (Elt F)) (src : (⟨S600000, .i32⟩ : BufTy).Contents (Elt F)) :
    (⟨S600000x128, .f32⟩ : BufTy).Contents (Elt F) :=
  mulf (Host.gather gather_S50000x128_S600000x1_S600000x128_1_0_n_n_0_1_1128 feat (srcCol src))
    (broadcastInDim S600000x128 ![0, 1] bcast_S600000x1_S600000x128_0_1
      (broadcastInDim S600000x1 ![0] bcast_S600000_S600000x1_0
        (Host.gather gather_S50000_S600000x1_S600000_n_0_n_n_0_1_1 (Host.rsqrt (deg src)) (srcCol src))))

/-- The messages accumulated into their destinations' rows. -/
def agg (feat : (⟨S50000x128, .f32⟩ : BufTy).Contents (Elt F)) (src dst : (⟨S600000, .i32⟩ : BufTy).Contents (Elt F)) :
    (⟨S50000x128, .f32⟩ : BufTy).Contents (Elt F) :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (msgs feat src)

/-- The dense stage at (r, q), over the exact values: the aggregated row r against column q of the weight, scaled by
    the reciprocal square root of r's in-degree, plus the bias at q, clamped at zero. -/
def out (feat : (⟨S50000x128, .f32⟩ : BufTy).Contents (Elt Ideal)) (src dst : (⟨S600000, .i32⟩ : BufTy).Contents (Elt Ideal))
    (wgt : (⟨S128x128, .f32⟩ : BufTy).Contents (Elt Ideal)) (bias : (⟨S128, .f32⟩ : BufTy).Contents (Elt Ideal)) :
    (⟨S50000x128, .f32⟩ : BufTy).Contents (Elt Ideal) := fun i =>
  let r : Fin 50000 := i 0
  let q : Fin 128 := i 1
  max ((∑ k : Fin 128, agg feat src dst (ix2 r k) * wgt (ix2 k q)) * Ideal.rsqrt (deg dst (ix1 r)) + bias (ix1 q))
    (Ideal.ofBits .f32 0x00000000#32)

theorem out_apply (feat : (⟨S50000x128, .f32⟩ : BufTy).Contents (Elt Ideal)) (src dst : (⟨S600000, .i32⟩ : BufTy).Contents (Elt Ideal))
    (wgt : (⟨S128x128, .f32⟩ : BufTy).Contents (Elt Ideal)) (bias : (⟨S128, .f32⟩ : BufTy).Contents (Elt Ideal))
    (r : Fin 50000) (q : Fin 128) :
    out feat src dst wgt bias (ix2 r q)
      = max ((∑ k : Fin 128, agg feat src dst (ix2 r k) * wgt (ix2 k q)) * Ideal.rsqrt (deg dst (ix1 r)) + bias (ix1 q))
          (Ideal.ofBits .f32 0x00000000#32) := rfl

end Cert.Conv

end
-- ==== Proof.KernelHost.lean ====
/-
  What the kernel's windows find: the arrays the host operations leave before the dense stage is launched.

  The dense stage reads four arrays. The aggregated messages (`Conv.agg`), the in-degrees laid out as a 50000 × 1
  column, and the bias laid out as a 1 × 128 row are computed by the host operations before the launch; the weight is
  the argument itself. Each is the composition of the operations that wrote it, read off the fold over the
  operations in order.
-/
import proofs.«166429_j51032801411439_2_alg».proof.Proof.Gen.KernelIdeal.Frame
import proofs.«166429_j51032801411439_2_alg».proof.Proof.Spec
import Idealize.ShloMosaic.Lib.StableHlo.Run

set_option maxRecDepth 8192

noncomputable section

namespace Cert.Conv

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

set_option maxHeartbeats 2000000 in
/-- The aggregated messages, as the launch finds them. -/
theorem V_agg (c : Dev nD) :
    (V m c main_v29 : (⟨S50000x128, .f32⟩ : BufTy).Contents (Elt F))
      = agg (m ((c.tc : Thread nD τ).loc main_arg0)) (m ((c.tc : Thread nD τ).loc main_arg1)) (m ((c.tc : Thread nD τ).loc main_arg2)) := by
  dsimp only [V]
  simp only [hostOps0, hostOps0_1, hostOps0_2, hostOps0_3, hostOps0_4, List.flatten_cons, List.flatten_nil, List.append_nil,
    List.cons_append, List.nil_append]
  after_results_simp
  rfl

set_option maxHeartbeats 2000000 in
/-- The in-degrees as a column, as the launch finds them. -/
theorem V_degCol (c : Dev nD) :
    (V m c main_v30 : (⟨S50000x1, .f32⟩ : BufTy).Contents (Elt F))
      = shapeCast S50000x1 (deg (m ((c.tc : Thread nD τ).loc main_arg2))) Facts₀.shapeCasts_S50000_S50000x1 := by
  dsimp only [V]
  simp only [hostOps0, hostOps0_1, hostOps0_2, hostOps0_3, hostOps0_4, List.flatten_cons, List.flatten_nil, List.append_nil,
    List.cons_append, List.nil_append]
  after_results_simp
  rfl

set_option maxHeartbeats 2000000 in
/-- The bias as a row, as the launch finds it. -/
theorem V_biasRow (c : Dev nD) :
    (V m c main_v31 : (⟨S1x128, .f32⟩ : BufTy).Contents (Elt F))
      = shapeCast S1x128 (m ((c.tc : Thread nD τ).loc main_arg4)) Facts₀.shapeCasts_S128_S1x128 := by
  dsimp only [V]
  simp only [hostOps0, hostOps0_1, hostOps0_2, hostOps0_3, hostOps0_4, List.flatten_cons, List.flatten_nil, List.append_nil,
    List.cons_append, List.nil_append]
  after_results_simp
  rfl

end Cert.Conv

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.Payload.lean ====
/-
  One block of the dense stage, read at an index.

  The body takes a 5000 × 128 block a of aggregated rows, the 128 × 128 weight w, a 5000 × 1 column d of in-degrees
  and the 1 × 128 bias row b, and stores max (a·w · rsqrt d + b, 0). Over the exact values the change of float format
  before the product is the identity and the product into a zero accumulator is the plain sum, so at (p, q) the
  block holds max ((∑ₖ a (p, k) · w (k, q)) · rsqrt (d (p, 0)) + b (0, q), 0): the column is read at its row, the row
  at its column.
-/
import proofs.«166429_j51032801411439_2_alg».proof.Proof.Gen.KernelIdeal.Skeleton
import proofs.«166429_j51032801411439_2_alg».proof.Proof.LibPlainDot
import proofs.«166429_j51032801411439_2_alg».proof.Proof.LibKeepdims
import proofs.«166429_j51032801411439_2_alg».proof.Proof.LibRowBroadcasts
import Idealize.ShloMosaic.Lib.Pipeline.Value

noncomputable section

namespace Cert.Conv

open Idealize.ShloMosaic Idealize.ShloMosaic.ValueIdx Cert.KernelIdeal Cert.KernelIdeal.Gen
open scoped BigOperators

/-- The stored block at (p, q). -/
theorem pay_apply (a : FVec Ideal S5000x128 .f32) (w : FVec Ideal S128x128 .f32) (d : FVec Ideal S5000x1 .f32)
    (b : FVec Ideal S1x128 .f32) (p : Fin 5000) (q : Fin 128) :
    k0_pay1 (F := Ideal) a w d b (ix2 p q)
      = max ((∑ k : Fin 128, a (ix2 p k) * w (ix2 k q)) * Ideal.rsqrt (d (ix2 p (0 : Fin 1))) + b (ix2 (0 : Fin 1) q))
          (Ideal.ofBits .f32 0x00000000#32) := by
  unfold k0_pay1
  show max ((matmul dot_S5000x128_S128x128_S5000x128_1_0_0_1_n_n none (truncf .bf16 (shapeCast S5000x128 a _) _)
        (truncf .bf16 w _) (constant S5000x128 .f32 0x00000000#32) (ix2 p q))
      * (broadcastTo S5000x128 (rsqrt (shapeCast S5000x1 d _)) _ (ix2 p q))
      + (broadcastTo S5000x128 (shapeCast S1x128 b _) _ (ix2 p q))) (Ideal.ofBits .f32 0x00000000#32) = _
  rw [show dot_S5000x128_S128x128_S5000x128_1_0_0_1_n_n
      = Cert.Lib.PlainDot.dims Facts₀.dot_S5000x128_S128x128_S5000x128_1_0_0_1_n_n_wf from rfl]
  rw [Cert.Lib.PlainDot.matmul_zero_apply, Cert.Lib.Keepdims.bcastCol_apply, Cert.Lib.Rows.bcastRow_apply]
  simp only [shapeCast_self]
  rfl

end Cert.Conv

end
-- ==== Proof.Blocks.lean ====
/-
  From the ten row blocks to the whole result.

  The dense stage runs at ten points. Point t reads rows 5000 t … 5000 t + 4999 of the aggregated messages and of the
  in-degree column, the whole weight and the whole bias row, and writes back rows 5000 t … 5000 t + 4999 of the result.
  An entry (r, q) of the result depends on row r of the aggregated messages, column q of the weight, the in-degree of r
  and the bias at q only, so what point t writes back is rows 5000 t … of one whole-array function (`Conv.out`) of
  the argument arrays; row r is written by point r / 5000, and the ten blocks cover the array.
-/
import proofs.«166429_j51032801411439_2_alg».proof.Proof.Gen.KernelIdeal.Value
import proofs.«166429_j51032801411439_2_alg».proof.Proof.KernelHost
import proofs.«166429_j51032801411439_2_alg».proof.Proof.Payload
import Idealize.ShloMosaic.Lib.Pipeline.Value
import Idealize.ShloMosaic.Lib.Tactic

set_option maxRecDepth 16384

noncomputable section

namespace Cert.Conv

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- The block index of each window at point t: the row-tiled windows move with t, the weight and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## One block over variables -/

/-- A block whose loads are rows of whole arrays stores the dense stage of those arrays at the rows' entries. -/
theorem block_at (a : FVec Ideal S5000x128 .f32) (w : FVec Ideal S128x128 .f32) (d : FVec Ideal S5000x1 .f32) (b : FVec Ideal S1x128 .f32)
    (A : FVec Ideal S50000x128 .f32) (W : FVec Ideal S128x128 .f32) (D : FVec Ideal S50000 .f32) (B : FVec Ideal S128 .f32)
    (y : S5000x128.Idx) (i : S50000x128.Idx)
    (ha : ∀ k : Fin 128, a (ix2 (y 0) k) = A (ix2 (i 0) k))
    (hw : ∀ k : Fin 128, w (ix2 k (y 1)) = W (ix2 k (i 1)))
    (hd : d (ix2 (y 0) (0 : Fin 1)) = D (ix1 (i 0)))
    (hb : b (ix2 (0 : Fin 1) (y 1)) = B (ix1 (i 1))) :
    k0_pay1 (F := Ideal) a w d b y
      = max ((∑ k : Fin 128, A (ix2 (i 0) k) * W (ix2 k (i 1))) * Ideal.rsqrt (D (ix1 (i 0))) + B (ix1 (i 1)))
          (Ideal.ofBits .f32 0x00000000#32) := by
  have hy : y = ix2 (y 0) (y 1) := eq_ix2 y
  refine (congrArg (k0_pay1 (F := Ideal) a w d b) hy).trans ((pay_apply a w d b (y 0) (y 1)).trans ?_)
  rw [hd, hb]
  simp only [ha, hw]

/-! ## Reading a block of an array, for any contents

Each lemma reads a window's block at point t off an array `G` held as a variable: which entry of `G` the block's
entry is depends on the window's index map only, never on what `G` holds. -/

/-- Window 0: entry x of the block is entry (5000 t + x₀, x₁) of the array. -/
theorem read_rows (t : Fin cfg0.N) (G : (⟨S50000x128, .f32⟩ : BufTy).Contents (Elt Ideal)) (x : S5000x128.Idx) (k : S50000x128.Idx)
    (hk0 : (k 0).val = 5000 * t.val + (x 0).val) (hk1 : (k 1).val = (x 1).val) :
    ((cfg0.win 0).blk t).view.read (Elt Ideal) G x = G k := by
  obtain ⟨e0, e1, -⟩ := idx_facts t
  rw [View.read_apply]
  show G (((cfg0.win 0).blk t).view.emb x) = G k
  refine congrArg G (funext fun ax => Fin.ext ?_)
  match ax with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- Window 1: the block is the array. -/
theorem read_whole (t : Fin cfg0.N) (G : (⟨S128x128, .f32⟩ : BufTy).Contents (Elt Ideal)) (x : S128x128.Idx) :
    ((cfg0.win 1).blk t).view.read (Elt Ideal) G x = G x := by
  obtain ⟨-, -, e0, e1, -⟩ := idx_facts t
  rw [View.read_apply]
  show G (((cfg0.win 1).blk t).view.emb x) = G x
  refine congrArg G (funext fun ax => Fin.ext ?_)
  match ax with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- Window 2: the block is the row. -/
theorem read_row (t : Fin cfg0.N) (G : (⟨S1x128, .f32⟩ : BufTy).Contents (Elt Ideal)) (x : S1x128.Idx) :
    ((cfg0.win 2).blk t).view.read (Elt Ideal) G x = G x := by
  obtain ⟨-, -, -, -, e0, e1, -⟩ := idx_facts t
  rw [View.read_apply]
  show G (((cfg0.win 2).blk t).view.emb x) = G x
  refine congrArg G (funext fun ax => Fin.ext ?_)
  match ax with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

/-- Window 3: entry x of the block is entry (5000 t + x₀, x₁) of the column. -/
theorem read_col (t : Fin cfg0.N) (G : (⟨S50000x1, .f32⟩ : BufTy).Contents (Elt Ideal)) (x : S5000x1.Idx) (k : S50000x1.Idx)
    (hk0 : (k 0).val = 5000 * t.val + (x 0).val) (hk1 : (k 1).val = (x 1).val) :
    ((cfg0.win 3).blk t).view.read (Elt Ideal) G x = G k := by
  obtain ⟨-, -, -, -, -, -, e0, e1, -⟩ := idx_facts t
  rw [View.read_apply]
  show G (((cfg0.win 3).blk t).view.emb x) = G k
  refine congrArg G (funext fun ax => Fin.ext ?_)
  match ax with
  | ⟨0, _⟩ => show win0_3.index t (0 : Fin 2) * 5000 + 1 * (x 0).val = (k 0).val; rw [e0, hk0]; omega
  | ⟨1, _⟩ => show win0_3.index t (1 : Fin 2) * 1 + 1 * (x 1).val = (k 1).val; rw [e1, hk1]; omega

/-- Window 4: the block of an array, read at j, is the array at the block's position of j. -/
theorem read_out (t : Fin cfg0.N) (G : (⟨S50000x128, .f32⟩ : BufTy).Contents (Elt Ideal)) (j : S5000x128.Idx) :
    ((cfg0.win 4).blk t).view.read (Elt Ideal) G j = G (((cfg0.win 4).blk t).view.emb j) := by
  rw [View.read_apply]
  rfl

/-- Window 4's block is written back whole. -/
theorem cut_out (t : Fin cfg0.N) (X : Vec Ideal S5000x128 .f32) (j : S5000x128.Idx) :
    (cfg0.win 4).cut (grid0.coords t) X j = X j := rfl

/-! ## The windows' blocks as rows of the arrays the launch finds -/

theorem V_agg' (c : Dev nD) : V m c (Pipeline.arrRef spec0 (0 : Fin cfg0.W)) = agg (m ((c.tc : Thread nD τ).loc main_arg0)) (m ((c.tc : Thread nD τ).loc main_arg1)) (m ((c.tc : Thread nD τ).loc main_arg2)) := V_agg m c
theorem V_wgt' (c : Dev nD) : V m c (Pipeline.arrRef spec0 (1 : Fin cfg0.W)) = m ((c.tc : Thread nD τ).loc main_arg3) := V_main_arg3 m c
theorem V_biasRow' (c : Dev nD) : V m c (Pipeline.arrRef spec0 (2 : Fin cfg0.W))
    = shapeCast S1x128 (m ((c.tc : Thread nD τ).loc main_arg4)) Facts₀.shapeCasts_S128_S1x128 := V_biasRow m c
theorem V_degCol' (c : Dev nD) : V m c (Pipeline.arrRef spec0 (3 : Fin cfg0.W))
    = shapeCast S50000x1 (deg (m ((c.tc : Thread nD τ).loc main_arg2))) Facts₀.shapeCasts_S50000_S50000x1 := V_degCol m c

/-- Window 0's block at point t: rows 5000 t … of the aggregated messages. -/
theorem iblk_agg (c : Dev nD) (t : Fin cfg0.N) (x : S5000x128.Idx) (k : S50000x128.Idx)
    (hk0 : (k 0).val = 5000 * t.val + (x 0).val) (hk1 : (k 1).val = (x 1).val) :
    (iblk m c 0 t : Vec Ideal S5000x128 .f32) x = agg (m ((c.tc : Thread nD τ).loc main_arg0)) (m ((c.tc : Thread nD τ).loc main_arg1)) (m ((c.tc : Thread nD τ).loc main_arg2)) k := by
  unfold iblk
  rw [V_agg' m c]
  exact read_rows t _ x k hk0 hk1

/-- Window 1's block at every point: the weight. -/
theorem iblk_wgt (c : Dev nD) (t : Fin cfg0.N) (x : S128x128.Idx) :
    (iblk m c 1 t : Vec Ideal S128x128 .f32) x = m ((c.tc : Thread nD τ).loc main_arg3) x := by
  unfold iblk
  rw [V_wgt' m c]
  exact read_whole t _ x

/-- Window 2's block at every point: the bias as a row. -/
theorem iblk_bias (c : Dev nD) (t : Fin cfg0.N) (q : Fin 128) :
    (iblk m c 2 t : Vec Ideal S1x128 .f32) (ix2 (0 : Fin 1) q) = m ((c.tc : Thread nD τ).loc main_arg4) (ix1 q) := by
  unfold iblk
  rw [V_biasRow' m c, read_row t _ (ix2 (0 : Fin 1) q)]
  refine shapeCast_apply (m ((c.tc : Thread nD τ).loc main_arg4)) Facts₀.shapeCasts_S128_S1x128 _ (ix1 q) ?_
  rw [Shape.rowMajor_val_two]
  show (S128.rowMajor (ix1 q)).val = _
  rw [Shape.rowMajor_val_one]
  show q.val = 0 * 128 + q.val
  omega

/-- Window 3's block at point t: rows 5000 t … of the in-degree column. -/
theorem iblk_deg (c : Dev nD) (t : Fin cfg0.N) (p : Fin 5000) (r : Fin 50000) (hr : r.val = 5000 * t.val + p.val) :
    (iblk m c 3 t : Vec Ideal S5000x1 .f32) (ix2 p (0 : Fin 1)) = deg (m ((c.tc : Thread nD τ).loc main_arg2)) (ix1 r) := by
  unfold iblk
  rw [V_degCol' m c]
  generalize deg (m ((c.tc : Thread nD τ).loc main_arg2)) = D
  rw [read_col t _ (ix2 p (0 : Fin 1)) (ix2 r (0 : Fin 1)) hr rfl]
  exact Cert.Lib.Keepdims.col_apply D Facts₀.shapeCasts_S50000_S50000x1 r (0 : Fin 1)

/-! ## What a point writes back, the cover, the array -/

/-- The dense stage at an index, by its coordinates. -/
theorem out_at (feat : (⟨S50000x128, .f32⟩ : BufTy).Contents (Elt Ideal)) (src dst : (⟨S600000, .i32⟩ : BufTy).Contents (Elt Ideal))
    (wgt : (⟨S128x128, .f32⟩ : BufTy).Contents (Elt Ideal)) (bias : (⟨S128, .f32⟩ : BufTy).Contents (Elt Ideal)) (i : S50000x128.Idx) :
    out feat src dst wgt bias i
      = max ((∑ k : Fin 128, agg feat src dst (ix2 (i 0) k) * wgt (ix2 k (i 1))) * Ideal.rsqrt (deg dst (ix1 (i 0))) + bias (ix1 (i 1)))
          (Ideal.ofBits .f32 0x00000000#32) := rfl

/-- Point t writes back rows 5000 t … of `out` of the argument arrays. -/
theorem flushed_eq (c : Dev nD) (t : Fin cfg0.N) :
    (dats m 0 c).flushed 4 t = ((cfg0.win 4).blk t).view.read (Elt Ideal)
      (out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))) := by
  rw [flushed4]
  unfold out0_4
  rw [View.canon_unit_zero hz]
  simp only [View.ld_unit_zero (S := S5000x128) hz, View.ld_unit_zero (S := S128x128) hz, View.ld_unit_zero (S := S5000x1) hz,
    View.ld_unit_zero (S := S1x128) hz]
  obtain ⟨-, -, -, -, -, -, -, -, e0, e1⟩ := idx_facts t
  funext j
  rw [read_out t _ j, cut_out t _ j, out_at]
  have hj0 : (j 0).val < 5000 := (j 0).isLt
  have hj1 : (j 1).val < 128 := (j 1).isLt
  have hi0 : ((((cfg0.win 4).blk t).view.emb j) 0).val = 5000 * t.val + (j 0).val := by
    show win0_4.index t (0 : Fin 2) * 5000 + 1 * (j 0).val = _
    rw [e0]; omega
  have hi1 : ((((cfg0.win 4).blk t).view.emb j) 1).val = (j 1).val := by
    show win0_4.index t (1 : Fin 2) * 128 + 1 * (j 1).val = _
    rw [e1]; omega
  exact block_at (iblk m c 0 t) (iblk m c 1 t) (iblk m c 3 t) (iblk m c 2 t)
    (agg (m ((c.tc : Thread nD τ).loc main_arg0)) (m ((c.tc : Thread nD τ).loc main_arg1)) (m ((c.tc : Thread nD τ).loc main_arg2)))
    (m ((c.tc : Thread nD τ).loc main_arg3)) (deg (m ((c.tc : Thread nD τ).loc main_arg2))) (m ((c.tc : Thread nD τ).loc main_arg4))
    j (((cfg0.win 4).blk t).view.emb j)
    (fun k => iblk_agg m c t (ix2 (j 0) k) (ix2 ((((cfg0.win 4).blk t).view.emb j) 0) k) hi0 rfl)
    (fun k => (iblk_wgt m c t (ix2 k (j 1))).trans (congrArg _ (funext fun ax => Fin.ext (by
      match ax with
      | ⟨0, _⟩ => rfl
      | ⟨1, _⟩ => exact hi1.symm))))
    (iblk_deg m c t (j 0) ((((cfg0.win 4).blk t).view.emb j) 0) hi0)
    ((iblk_bias m c t (j 1)).trans (congrArg _ (funext fun ax => Fin.ext (by
      match ax with
      | ⟨0, _⟩ => exact hi1.symm))))

/-- An index of the result is in point t's block iff its row is one of the block's rows. -/
theorem mem_blk (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v32).slice (win0_4.rect t)).set ↔ _
  rw [View.set_slice_whole, Rect.mem_set_unit]
  exact Iff.rfl

/-- Row r is written back by point r / 5000. -/
theorem covered (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    rw [e0]; show (i 0).val / 5000 * 5000 ≤ (i 0).val ∧ (i 0).val < (i 0).val / 5000 * 5000 + 5000; omega
  | ⟨1, _⟩ =>
    show win0_4.index t (1 : Fin 2) * 128 ≤ (i 1).val ∧ (i 1).val < win0_4.index t (1 : Fin 2) * 128 + 128
    rw [e1]; omega

/-- The result array after the run is `out` of the argument arrays. -/
theorem final (c : Dev nD) : (dats m 0 c).arrAt 4 cfg0.N
    = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) :=
  (dats m 0 c).arrAt_eq_of_cover 4 _ (fun t _ => flushed_eq m c t) covered

/-- The kernel's run, read: the result at `out` of the arguments, the arguments unchanged. -/
theorem run : θ_run defs (onTc (τ := τ) (main (F := Ideal))) ⟨m, fun _ => 0, ρ⟩ fun r => ∀ c : Dev nD,
      r.2.mem ((c.tc : Thread nD τ).loc main_v32)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (final m c), (h c).2⟩) (run_blocks m ρ)

end Cert.Conv

end
-- ==== Proof.LibPowNegHalf.lean ====
/-
  A power of minus one half is the reciprocal square root, above one.

  A quantity clamped below by one (a count, a degree, a norm floored at one) is, as an extended real, either a real
  number r ≥ 1 or +∞. For a real r ≥ 1 the power r ^ (−1/2) is (r ^ (1/2))⁻¹ = (√r)⁻¹, which is the reciprocal square root of a
  positive real; at +∞ both are 0 (a negative exponent sends +∞ to 0, and 1/√∞ = 0). The float word of the
  exponent, −0.5, is an exact dyadic, so it denotes the real −1/2. No finiteness of the data is involved: the
  clamp alone puts the quantity where the two functions agree (`pow_neg_half_max_one`: for any extended real x,
  max (1, x) ^ (−1/2) = rsqrt (max (1, x)), with the float words of 1.0 and −0.5 as printed).
-/
import Idealize.ShloMosaic.PureOps.Ideal
import Idealize.ShloMosaic.PureOps.Ideal.Laws

noncomputable section

namespace Cert.Lib.PowNegHalf

open Idealize.ShloMosaic

/-- The word of `-0.5` denotes the real −1/2. -/
theorem ofBits_neg_half : Ideal.ofBits .f32 0xBF000000#32 = ((-(1 / 2) : ℝ) : EReal) := by
  simp [Ideal.ofBits, Ideal.ieee, -EReal.coe_mul]; norm_num

/-- The word of `1.0` denotes 1. -/
theorem ofBits_one : Ideal.ofBits .f32 0x3F800000#32 = 1 := by
  simp [Ideal.ofBits, Ideal.ieee, -EReal.coe_mul]; norm_num

/-- For a real r ≥ 1: r ^ (−1/2) = (√r)⁻¹. -/
theorem rpow_neg_half (r : ℝ) (h : 1 ≤ r) : Real.rpow r (-(1 / 2)) = (Real.sqrt r)⁻¹ := by
  have h0 : (0 : ℝ) ≤ r := le_trans zero_le_one h
  show r ^ (-(1 / 2) : ℝ) = (Real.sqrt r)⁻¹
  rw [Real.rpow_neg h0, Real.sqrt_eq_rpow]

/-- Above one, the power of minus one half is the reciprocal square root, on the extended reals. -/
theorem pow_neg_half_eq_rsqrt (x : EReal) (h : 1 ≤ x) :
    Ideal.pow x (Ideal.ofBits .f32 0xBF000000#32) = Ideal.rsqrt x := by
  rw [ofBits_neg_half]
  induction x using EReal.rec with
  | bot =>
    have hb : (⊥ : EReal) < 1 := by rw [← EReal.coe_one]; exact EReal.bot_lt_coe 1
    exact absurd (lt_of_lt_of_le hb h) (lt_irrefl _)
  | top =>
    rw [Ideal.pow_top, Ideal.rsqrt_top]
    have h1 : ¬ (0 : EReal) < ((-(1 / 2) : ℝ) : EReal) := by
      rw [EReal.coe_pos]; norm_num
    have h2 : ((-(1 / 2) : ℝ) : EReal) ≠ 0 := by
      rw [Ne, EReal.coe_eq_zero]; norm_num
    rw [if_neg h1, if_neg h2]
  | coe r =>
    have hr : (1 : ℝ) ≤ r := by exact_mod_cast h
    rw [Ideal.pow_coe_coe, Ideal.rsqrt_coe, rpow_neg_half r hr,
      if_neg (by linarith : ¬ r < 0), if_neg (by linarith : ¬ r = 0)]

/-- The clamp below by one puts any extended real where the two agree. -/
theorem pow_neg_half_max_one (x : EReal) :
    Ideal.pow (max (Ideal.ofBits .f32 0x3F800000#32) x) (Ideal.ofBits .f32 0xBF000000#32)
      = Ideal.rsqrt (max (Ideal.ofBits .f32 0x3F800000#32) x) :=
  pow_neg_half_eq_rsqrt _ (by rw [ofBits_one]; exact le_max_left _ _)

end Cert.Lib.PowNegHalf

end
-- ==== Proof.LibGatherScatter.lean ====
/-
  Rows gathered and rows accumulated through a column of indices, read at an index.

  A column of `R` integer words, held as an `R × 1` array, names one row of an `N`-row array for each of `R` positions.
  Gathering rows through it reads, at position `e`, row `clamp(word e)` of the operand: the word is read as a signed
  integer and clamped into `[0, N − 1]`. Accumulating rows through it adds the update's row `e` into row `word e` of
  the operand when the word, read signed, lies in `[0, N)`, and drops it otherwise (no clamping). At the exact values the
  accumulated array holds, at `(n, q)`, the operand's entry plus the sum of the updates' entries `(e, q)` over the
  positions `e` whose word names row `n`. The same for a length-`N` vector gathered or accumulated through the column.
  For any extents; the printed records with these lists are these by reflexivity.
-/
import Idealize.ShloMosaic.PureOps.Ideal
import Idealize.ShloMosaic.Lib.ValueIdx
import Idealize.ShloMosaic.Lib.Pipeline.Value

noncomputable section

open scoped BigOperators

namespace Cert.Lib.GatherScatter

open Idealize.ShloMosaic Idealize.ShloMosaic.ValueIdx

variable {N C R w : Nat}

/-- The word the column holds for position `e`, read as a signed integer. -/
def colInt (idx : IVec ⟨2, ![R, 1]⟩ w) (e : Fin R) : Int := (idx (ix2 e (0 : Fin 1))).toInt

/-- The row a gather reads for position `e`: the word read signed and clamped into `[0, N − 1]`. -/
def gatherRow (hN : 0 < N) (idx : IVec ⟨2, ![R, 1]⟩ w) (e : Fin R) : Fin N :=
  ⟨min (colInt idx e).toNat (N - 1), by omega⟩

/-- The row an accumulation lands on for position `e`: the word read signed when it lies in `[0, N)`, none otherwise. -/
def scatterRow (N : Nat) (idx : IVec ⟨2, ![R, 1]⟩ w) (e : Fin R) : Option (Fin N) :=
  if h : 0 ≤ colInt idx e ∧ colInt idx e < (N : Int) then some ⟨(colInt idx e).toNat, by omega⟩ else none

/-- A position whose word names row `n` for the accumulation names the same row for a gather. -/
theorem gatherRow_of_scatterRow (hN : 0 < N) (idx : IVec ⟨2, ![R, 1]⟩ w) (e : Fin R) (n : Fin N)
    (h : scatterRow N idx e = some n) : gatherRow hN idx e = n := by
  unfold scatterRow at h
  split at h
  · rename_i hr
    have := Option.some.inj h
    subst this
    refine Fin.ext ?_
    show min (colInt idx e).toNat (N - 1) = (colInt idx e).toNat
    omega
  · exact absurd h (by simp)

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- Two rank-2 indices are equal exactly when their coordinates are. -/
theorem ix2_inj {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- A length-`R` vector laid out as an `R × 1` column reads, at `(e, ·)`, the vector at `e`. -/
theorem column_apply {α : Type} (v : (⟨1, ![R]⟩ : Shape).Idx → α)
    (h : (⟨1, ![R]⟩ : Shape).BroadcastsInDim ⟨2, ![R, 1]⟩ ![0]) (e : Fin R) (u : Fin 1) :
    broadcastInDim ⟨2, ![R, 1]⟩ ![0] h v (ix2 e u) = v (ix1 e) := by
  refine broadcastInDim_apply _ h v (ix2 e u) (ix1 e) fun ax => ?_
  match ax with
  | ⟨0, _⟩ =>
    show e.val = if R = 1 then 0 else e.val
    split
    · have := e.isLt; omega
    · rfl

/-! ## Gathering rows -/

/-- The dimension numbers of a row gather `[N, C]` through an `R × 1` column, result `[R, C]`. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at `(e, q)`: the operand at `(row e, q)`. -/
theorem rowGather_apply {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (q : Fin C) :
    Host.gather (rowGatherDims N C R wf) x idx (ix2 e q) = x (ix2 (gatherRow hN idx e) q) := by
  unfold Host.gather
  congr 1
  funext a
  refine Fin.ext ?_
  match a with
  | ⟨0, _⟩ =>
    show (rowGatherDims N C R wf).start (ix2 e q) idx 0 + (rowGatherDims N C R wf).batchCoord (ix2 e q) 0
      + (rowGatherDims N C R wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 e q) ⟨List.idxOf (0 : Fin 2) (rowGatherDims N C R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C R wf).start (ix2 e q) idx 1 + (rowGatherDims N C R wf).batchCoord (ix2 e q) 1
      + (rowGatherDims N C R wf).offCoord (ix2 e q) 1 = q.val
    rw [GatherDims.batchCoord_eq_zero _ _ _ List.not_mem_nil]
    have hs : (rowGatherDims N C R wf).start (ix2 e q) idx 1 = 0 := by
      unfold GatherDims.start
      rw [dif_neg (show ¬ (1 : Fin 2) ∈ (rowGatherDims N C R wf).startIndexMap from
        fun h => absurd (show (1 : Fin 2) = 0 from List.mem_singleton.mp h) (by decide))]
    rw [hs]
    simp only [Nat.add_zero, Nat.zero_add]
    rfl

/-! ## Gathering entries of a vector -/

/-- The dimension numbers of a gather from a length-`N` vector through an `R × 1` column, result `[R]`. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The vector gather at `e`: the operand at `row e`. -/
theorem vecGather_apply {α : Type} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (gatherRow hN idx e)) := by
  unfold Host.gather
  congr 1
  funext a
  refine Fin.ext ?_
  match a with
  | ⟨0, _⟩ =>
    show (vecGatherDims N R wf).start (ix1 e) idx 0 + (vecGatherDims N R wf).batchCoord (ix1 e) 0
      + (vecGatherDims N R wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N R wf).startIndexMap from List.mem_singleton.mpr rfl)]
    have hsi : (vecGatherDims N R wf).siIdx (ix1 e) ⟨List.idxOf (0 : Fin 1) (vecGatherDims N R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## Accumulating rows -/

/-- The dimension numbers of a row accumulation into `[N, C]` through an `R × 1` column, updates `[R, C]`. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable (wf : ScatterDims.WF ⟨2, ![N, C]⟩ ⟨2, ![R, 1]⟩ ⟨2, ![R, C]⟩ [1] [0] [0] 1)

theorem rowScatter_start0 (idx : IVec ⟨2, ![R, 1]⟩ w) (e : Fin R) (q : Fin C) :
    (rowScatterDims N C R wf).start (ix2 e q) idx 0 = colInt idx e := by
  unfold ScatterDims.start
  rw [dif_pos (show (0 : Fin 2) ∈ (rowScatterDims N C R wf).scatterDimsToOperandDims from List.mem_singleton.mpr rfl)]
  have hsi : (rowScatterDims N C R wf).siIdx (ix2 e q) ⟨List.idxOf (0 : Fin 2) (rowScatterDims N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rowScatter_start1 (idx : IVec ⟨2, ![R, 1]⟩ w) (e : Fin R) (q : Fin C) :
    (rowScatterDims N C R wf).start (ix2 e q) idx 1 = 0 := by
  unfold ScatterDims.start
  rw [dif_neg (show ¬ (1 : Fin 2) ∈ (rowScatterDims N C R wf).scatterDimsToOperandDims from
    fun h => absurd (show (1 : Fin 2) = 0 from List.mem_singleton.mp h) (by decide))]

theorem rowScatter_window0 (e : Fin R) (q : Fin C) : (rowScatterDims N C R wf).window (ix2 e q) 0 = 0 := by
  unfold ScatterDims.window
  rw [dif_neg (show ¬ (0 : Fin 2) ∈ (rowScatterDims N C R wf).sKept from
    fun h => (mem_kept _ _).mp h (List.mem_singleton.mpr rfl))]

theorem rowScatter_window1 (e : Fin R) (q : Fin C) : (rowScatterDims N C R wf).window (ix2 e q) 1 = q.val := by
  unfold ScatterDims.window
  rw [dif_pos (show (1 : Fin 2) ∈ (rowScatterDims N C R wf).sKept from
    (mem_kept _ _).mpr fun h => absurd (show (1 : Fin 2) = 0 from List.mem_singleton.mp h) (by decide))]
  rfl

/-- Where the update's entry `(e, q)` lands: at `(row e, q)` when the word names a row, nowhere otherwise. -/
theorem rowScatter_resultIdx (idx : IVec ⟨2, ![R, 1]⟩ w) (e : Fin R) (q : Fin C) :
    (rowScatterDims N C R wf).resultIdx? (ix2 e q) idx = (scatterRow N idx e).map fun n => ix2 n q := by
  unfold ScatterDims.resultIdx? scatterRow
  by_cases h : 0 ≤ colInt idx e ∧ colInt idx e < (N : Int)
  · have hall : ∀ a, 0 ≤ (rowScatterDims N C R wf).start (ix2 e q) idx a + (rowScatterDims N C R wf).window (ix2 e q) a
        ∧ (rowScatterDims N C R wf).start (ix2 e q) idx a + (rowScatterDims N C R wf).window (ix2 e q) a
          < ((⟨2, ![N, C]⟩ : Shape).size a : Int) := by
      intro a
      match a with
      | ⟨0, _⟩ =>
        rw [show (⟨0, _⟩ : Fin 2) = 0 from rfl, rowScatter_start0, rowScatter_window0]
        show 0 ≤ colInt idx e + ((0 : Nat) : Int) ∧ colInt idx e + ((0 : Nat) : Int) < (N : Int)
        omega
      | ⟨1, _⟩ =>
        rw [show (⟨1, _⟩ : Fin 2) = 1 from rfl, rowScatter_start1, rowScatter_window1]
        show 0 ≤ (0 : Int) + (q.val : Int) ∧ (0 : Int) + (q.val : Int) < (C : Int)
        have := q.isLt
        omega
    rw [dif_pos hall, dif_pos h, Option.map_some]
    congr 1
    funext a
    refine Fin.ext ?_
    match a with
    | ⟨0, _⟩ =>
      show ((rowScatterDims N C R wf).start (ix2 e q) idx 0 + (rowScatterDims N C R wf).window (ix2 e q) 0).toNat = (colInt idx e).toNat
      rw [rowScatter_start0, rowScatter_window0]
      simp
    | ⟨1, _⟩ =>
      show ((rowScatterDims N C R wf).start (ix2 e q) idx 1 + (rowScatterDims N C R wf).window (ix2 e q) 1).toNat = q.val
      rw [rowScatter_start1, rowScatter_window1]
      simp
  · rw [dif_neg h, Option.map_none, dif_neg]
    intro hall
    apply h
    have h0 := hall 0
    rw [rowScatter_start0, rowScatter_window0] at h0
    have h0' : 0 ≤ colInt idx e + ((0 : Nat) : Int) ∧ colInt idx e + ((0 : Nat) : Int) < (N : Int) := h0
    omega

/-- THE ACCUMULATION AT `(n, q)`, at the exact values: the operand's entry plus the updates' entries `(e, q)` over
    the positions `e` whose word names row `n`. -/
theorem rowScatterAdd_apply {φ : FTy} (x : FVec Ideal ⟨2, ![N, C]⟩ φ) (idx : IVec ⟨2, ![R, 1]⟩ w)
    (upd : FVec Ideal ⟨2, ![R, C]⟩ φ) (n : Fin N) (q : Fin C) :
    Host.scatterAdd (rowScatterDims N C R wf) x idx upd (ix2 n q)
      = x (ix2 n q) + ∑ e ∈ Finset.univ.filter (fun e => scatterRow N idx e = some n), upd (ix2 e q) := by
  show Ideal.hostScatterAdd (rowScatterDims N C R wf) x idx upd (ix2 n q) = _
  unfold Ideal.hostScatterAdd
  congr 1
  rw [Finset.sum_filter, sum_idx2, Finset.sum_filter]
  refine Finset.sum_congr rfl fun e _ => ?_
  simp only [rowScatter_resultIdx]
  cases hsr : scatterRow N idx e with
  | none => simp
  | some n' =>
    simp only [Option.map_some, Option.some.injEq, ix2_inj]
    by_cases hn : n' = n
    · subst hn
      simp only [true_and, if_true]
      exact (Finset.sum_ite_eq' Finset.univ q fun c => upd (ix2 e c)).trans (if_pos (Finset.mem_univ q))
    · simp only [hn, false_and, if_false, Finset.sum_const_zero]

end RowScatter

/-! ## Accumulating entries of a vector -/

/-- The dimension numbers of an accumulation into a length-`N` vector through an `R × 1` column, updates `[R]`. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

end Cert.Lib.GatherScatter

end
-- ==== Proof.LibScaledGather.lean ====
/-
  Scale then gather is gather then scale.

  A column of R index words names, for each position e, one row of an N × C matrix x and the matching entry of a
  length-N vector of scales s. Scaling every row of x by its entry of s and then gathering the rows the words name
  gives, at (e, q), x (row e, q) · s (row e); gathering the rows of x and, separately, the entries of s through the
  same column and multiplying gives the same product, because both gathers read the same row: the word of e read
  signed and clamped. This is pointwise: no property of the numbers is used, and it holds for any float values,
  any extents and any width of the index words (x[idx] * s[idx][:, None] = (x * s[:, None])[idx]).
-/
import proofs.«166429_j51032801411439_2_alg».proof.Proof.LibGatherScatter
import proofs.«166429_j51032801411439_2_alg».proof.Proof.LibRowBroadcasts

noncomputable section

namespace Cert.Lib.ScaledGather

open Idealize.ShloMosaic Idealize.ShloMosaic.ValueIdx Cert.Lib.GatherScatter Cert.Lib.Rows

variable {F : FTy → Type} [FloatOps F] {N C R w : Nat} {φ : FTy}

/-- Gathered rows times gathered scales is the gather of the scaled rows. -/
theorem gather_scaled (hN : 0 < N)
    (wfR : GatherDims.WF ⟨2, ![N, C]⟩ ⟨2, ![R, 1]⟩ ⟨2, ![R, C]⟩ [1] [0] [] [0] [] 1 ![1, C])
    (wfV : GatherDims.WF ⟨1, ![N]⟩ ⟨2, ![R, 1]⟩ ⟨1, ![R]⟩ [] [0] [] [0] [] 1 ![1])
    (hcN : (⟨1, ![N]⟩ : Shape).BroadcastsInDim ⟨2, ![N, 1]⟩ ![0])
    (hbN : (⟨2, ![N, 1]⟩ : Shape).BroadcastsInDim ⟨2, ![N, C]⟩ ![0, 1])
    (hcR : (⟨1, ![R]⟩ : Shape).BroadcastsInDim ⟨2, ![R, 1]⟩ ![0])
    (hbR : (⟨2, ![R, 1]⟩ : Shape).BroadcastsInDim ⟨2, ![R, C]⟩ ![0, 1])
    (feat : FVec F ⟨2, ![N, C]⟩ φ) (s : FVec F ⟨1, ![N]⟩ φ) (idx : IVec ⟨2, ![R, 1]⟩ w) :
    mulf (Host.gather (rowGatherDims N C R wfR) feat idx)
        (broadcastInDim ⟨2, ![R, C]⟩ ![0, 1] hbR (broadcastInDim ⟨2, ![R, 1]⟩ ![0] hcR (Host.gather (vecGatherDims N R wfV) s idx)))
      = Host.gather (rowGatherDims N C R wfR)
          (mulf feat (broadcastInDim ⟨2, ![N, C]⟩ ![0, 1] hbN (broadcastInDim ⟨2, ![N, 1]⟩ ![0] hcN s))) idx := by
  funext j
  obtain ⟨e, q, rfl⟩ : ∃ (e : Fin R) (q : Fin C), j = ix2 e q := ⟨j 0, j 1, eq_ix2 j⟩
  show FloatOps.mulf (Host.gather (rowGatherDims N C R wfR) feat idx (ix2 e q))
      (broadcastInDim ⟨2, ![R, C]⟩ ![0, 1] hbR (broadcastInDim ⟨2, ![R, 1]⟩ ![0] hcR (Host.gather (vecGatherDims N R wfV) s idx)) (ix2 e q)) = _
  rw [rowGather_apply hN, rowGather_apply hN, dimCol_apply, column_apply, vecGather_apply hN]
  show _ = FloatOps.mulf (feat (ix2 (gatherRow hN idx e) q))
      (broadcastInDim ⟨2, ![N, C]⟩ ![0, 1] hbN (broadcastInDim ⟨2, ![N, 1]⟩ ![0] hcN s) (ix2 (gatherRow hN idx e) q))
  rw [dimCol_apply, column_apply]

end Cert.Lib.ScaledGather

end
-- ==== Proof.Reference.lean ====
/-
  The reference computes the same dense stage of the same aggregated messages.

  The reference scales every feature row by its node's out-degree to the power −1/2 and gathers the scaled rows;
  the kernel's host side gathers rows and reciprocal square roots separately and multiplies. A degree is clamped
  below by one, where the power −1/2 and the reciprocal square root agree, and scaling commutes with the gather, so
  the two arrays of messages are equal, and so are their accumulations into the destinations' rows. The reference's
  dense stage, read at (r, q), is then the row r of that array against column q of the weight, times the in-degree
  of r to the power −1/2 — again the reciprocal square root —, plus the bias at q, clamped at zero.
-/
import proofs.«166429_j51032801411439_2_alg».proof.Proof.Gen.ReferenceIdeal.Read
import proofs.«166429_j51032801411439_2_alg».proof.Proof.Spec
import proofs.«166429_j51032801411439_2_alg».proof.Proof.LibPowNegHalf
import proofs.«166429_j51032801411439_2_alg».proof.Proof.LibScaledGather

set_option maxRecDepth 16384

noncomputable section

namespace Cert.Conv

open Idealize.ShloMosaic Idealize.ShloMosaic.ValueIdx Cert.KernelIdeal
open Cert.Lib.GatherScatter Cert.Lib.ScaledGather Cert.Lib.PowNegHalf
open Cert.ReferenceIdeal.Read
open scoped BigOperators

/-- The reference counts and clamps the out-degrees as the kernel does. -/
theorem ref_deg_out (ix : (⟨S600000, .i32⟩ : BufTy).Contents (Elt Ideal)) : val_main_v4 (F := Ideal) ix = deg ix := rfl

/-- … and the in-degrees. -/
theorem ref_deg_in (ix : (⟨S600000, .i32⟩ : BufTy).Contents (Elt Ideal)) : val_main_v8 (F := Ideal) ix = deg ix := rfl

/-- A degree is the larger of one and a count. -/
theorem deg_apply (ix : (⟨S600000, .i32⟩ : BufTy).Contents (Elt Ideal)) (i : S50000.Idx) :
    deg (F := Ideal) ix i = max (Ideal.ofBits .f32 0x3F800000#32) (val_main_v3 (F := Ideal) ix i) := by
  rw [← ref_deg_out, val_main_v4_apply, val_main_call0_v1_apply, val_main_call0_v0_apply, val_main_cst_1_apply,
    Ideal.maximumf_def, Ideal.ofBits_def]

/-- At a degree the power −1/2 is the reciprocal square root. -/
theorem pow_deg (ix : (⟨S600000, .i32⟩ : BufTy).Contents (Elt Ideal)) (i : S50000.Idx) :
    Ideal.pow (deg (F := Ideal) ix i) (Ideal.ofBits .f32 0xBF000000#32) = Ideal.rsqrt (deg (F := Ideal) ix i) := by
  rw [deg_apply]; exact pow_neg_half_max_one _

/-- The host's power, entry by entry, over the exact values. -/
theorem hostPowf_apply {s : Shape} {φ : FTy} (a b : FVec Ideal s φ) (i : s.Idx) : Host.powf a b i = Ideal.pow (a i) (b i) := rfl

/-- The host's reciprocal square root, entry by entry, over the exact values. -/
theorem hostRsqrt_apply {s : Shape} {φ : FTy} (a : FVec Ideal s φ) (i : s.Idx) : Host.rsqrt a i = Ideal.rsqrt (a i) := rfl

/-- The reference's scale vector is the reciprocal square roots of the degrees. -/
theorem ref_scale (ix : (⟨S600000, .i32⟩ : BufTy).Contents (Elt Ideal)) :
    Host.powf (F := Ideal) (s := S50000) (φ := .f32) (val_main_v4 (F := Ideal) ix) (val_main_v9 (F := Ideal))
      = Host.rsqrt (F := Ideal) (s := S50000) (φ := .f32) (deg (F := Ideal) ix) := by
  funext i
  rw [hostPowf_apply, hostRsqrt_apply, val_main_v9_apply, val_main_cst_4_apply, Ideal.ofBits_def, ref_deg_out]
  exact pow_deg ix i

/-- The reference's messages are the kernel's. -/
theorem ref_msgs (feat : (⟨S50000x128, .f32⟩ : BufTy).Contents (Elt Ideal)) (src : (⟨S600000, .i32⟩ : BufTy).Contents (Elt Ideal)) :
    val_main_v20 (F := Ideal) feat src = msgs feat src := by
  show Host.gather (rowGatherDims 50000 128 600000 Facts₀.gather_S50000x128_S600000x1_S600000x128_1_0_n_n_0_1_1128_wf)
      (mulf (F := Ideal) (s := S50000x128) (φ := .f32) feat (broadcastInDim ⟨2, ![50000, 128]⟩ ![0, 1] _
        (broadcastInDim ⟨2, ![50000, 1]⟩ ![0] _
          (Host.powf (F := Ideal) (s := S50000) (φ := .f32) (val_main_v4 (F := Ideal) src) (val_main_v9 (F := Ideal)))))) (srcCol src) = _
  rw [ref_scale]
  exact (gather_scaled (F := Ideal) (φ := .f32) (by omega) _ Facts₀.gather_S50000_S600000x1_S600000_n_0_n_n_0_1_1_wf _ _
    Facts₀.bcast_S600000_S600000x1_0 Facts₀.bcast_S600000x1_S600000x128_0_1 feat (Host.rsqrt (F := Ideal) (s := S50000) (φ := .f32) (deg src)) (srcCol src)).symm

/-- So the two accumulate the same array. -/
theorem ref_agg (feat : (⟨S50000x128, .f32⟩ : BufTy).Contents (Elt Ideal)) (src dst : (⟨S600000, .i32⟩ : BufTy).Contents (Elt Ideal)) :
    val_main_v23 (F := Ideal) feat src dst = agg feat src dst := by
  unfold val_main_v23 agg
  rw [ref_msgs]
  rfl

/-- The reference's result, index by index, is the dense stage of the aggregated messages. -/
theorem ref_out (feat : (⟨S50000x128, .f32⟩ : BufTy).Contents (Elt Ideal)) (src dst : (⟨S600000, .i32⟩ : BufTy).Contents (Elt Ideal))
    (wgt : (⟨S128x128, .f32⟩ : BufTy).Contents (Elt Ideal)) (bias : (⟨S128, .f32⟩ : BufTy).Contents (Elt Ideal)) :
    val_main_v33 (F := Ideal) feat src dst wgt bias = out feat src dst wgt bias := by
  funext i
  obtain ⟨r, q, rfl⟩ : ∃ (r : Fin 50000) (q : Fin 128), i = ix2 r q := ⟨i 0, i 1, eq_ix2 i⟩
  rw [out_apply, val_main_v33_apply, val_main_v32_apply, val_main_v29_apply, val_main_v24_apply,
    val_main_v28_apply, val_main_v27_apply, val_main_v26_apply, val_main_v31_apply, val_main_v30_apply,
    val_main_v25_apply, val_main_cst_7_apply, val_main_call2_v0_apply, val_main_call2_cst_apply]
  have e1 : ∀ k : Fin 128, lidx_main_v24 (ix2 r q) k = ix2 r k := fun k => funext fun a => Fin.ext (by
    match a with
    | ⟨0, _⟩ => rfl
    | ⟨1, _⟩ => rfl)
  have e2 : ∀ k : Fin 128, ridx_main_v24 (ix2 r q) k = ix2 k q := fun k => funext fun a => Fin.ext (by
    match a with
    | ⟨0, _⟩ => rfl
    | ⟨1, _⟩ => rfl)
  have e3 : idx_main_v27 (idx_main_v28 (ix2 r q)) = ix1 r := funext fun a => Fin.ext (by
    match a with
    | ⟨0, _⟩ => rfl)
  have e4 : idx_main_v30 (idx_main_v31 (ix2 r q)) = ix1 q := funext fun a => Fin.ext (by
    match a with
    | ⟨0, _⟩ => rfl)
  simp only [e1, e2]
  rw [e3, e4, ref_agg, ref_deg_in, Ideal.maximumf_def, Ideal.addf_def, Ideal.mulf_def, Ideal.hostPowf_def, Ideal.ofBits_def,
    Ideal.ofBits_def, pow_deg]

end Cert.Conv

end
-- ==== Proof.lean ====
/-
  A graph convolution with symmetric degree normalisation, over 50000 nodes, 600000 edges and 128 features:
  out = relu ((A (D_out^{-1/2} X)) W · D_in^{-1/2} + b), where A sums, into each destination's row, the rows of the
  edges' sources.

  Both programs count the degrees the same way and clamp them below by one. The reference scales the feature rows
  by the out-degree to the power −1/2 before gathering them along the edges and multiplies the projected rows by the
  in-degree to the power −1/2; the kernel gathers rows and reciprocal square roots separately, multiplies per edge,
  and applies the reciprocal square root of the in-degree inside its dense stage, which runs in ten row blocks with
  the product's operands passed through a narrower float format.

  Over the exact values these are one function of the arguments (`Conv.out`):
  * above one, x ^ (−1/2) = 1/√x on the extended reals, +∞ included (Proof/LibPowNegHalf.lean) — the clamp is what puts
    the degrees there, so no finiteness of the data is needed;
  * scaling rows commutes with gathering them (Proof/LibScaledGather.lean), so the two accumulate the same messages
    (Proof/Reference.lean);
  * a change of float format is the identity and a product into a zero accumulator is the plain sum
    (Proof/Payload.lean), and an entry of the result depends on its own row of the aggregated messages only, so the
    ten blocks are the rows of one whole array (Proof/Blocks.lean, over the arrays the host operations leave:
    Proof/KernelHost.lean).
  The three frames are the programs' runs with the results dropped; the idealized kernel is the kernel's own text
  read over the exact values, so there is nothing to preserve.
-/
import proofs.«166429_j51032801411439_2_alg».proof.Defs
import proofs.«166429_j51032801411439_2_alg».proof.Proof.Gen.Kernel
import proofs.«166429_j51032801411439_2_alg».proof.Proof.Gen.Kernel.Skeleton
import proofs.«166429_j51032801411439_2_alg».proof.Proof.Gen.Kernel.Launch
import proofs.«166429_j51032801411439_2_alg».proof.Proof.Gen.Kernel.Points
import proofs.«166429_j51032801411439_2_alg».proof.Proof.Gen.Kernel.Frame
import proofs.«166429_j51032801411439_2_alg».proof.Proof.Gen.KernelIdeal
import proofs.«166429_j51032801411439_2_alg».proof.Proof.Gen.KernelIdeal.Skeleton
import proofs.«166429_j51032801411439_2_alg».proof.Proof.Gen.KernelIdeal.Launch
import proofs.«166429_j51032801411439_2_alg».proof.Proof.Gen.KernelIdeal.Points
import proofs.«166429_j51032801411439_2_alg».proof.Proof.Gen.KernelIdeal.Frame
import proofs.«166429_j51032801411439_2_alg».proof.Proof.Gen.ReferenceIdeal
import proofs.«166429_j51032801411439_2_alg».proof.Proof.Gen.Pre_finite_inputs
import proofs.«166429_j51032801411439_2_alg».proof.Proof.Gen.KernelIdeal.Value
import proofs.«166429_j51032801411439_2_alg».proof.Proof.Gen.ReferenceIdeal.Run
import proofs.«166429_j51032801411439_2_alg».proof.Proof.Gen.ReferenceIdeal.Read
import proofs.«166429_j51032801411439_2_alg».proof.Proof.Blocks
import proofs.«166429_j51032801411439_2_alg».proof.Proof.Reference
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and leaves its arguments. -/
theorem frame_k : Cert.frame_Kernel := fun m ρ _ => Cert.Kernel.Gen.frame m ρ

/-- The kernel over the exact values runs and leaves its arguments. -/
theorem frame_ki : Cert.frame_KernelIdeal := fun m ρ _ => Cert.KernelIdeal.Gen.frame m ρ

/-- The reference runs and leaves its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories agreeing on the arguments both programs end with `Conv.out` of the arguments. -/
theorem algebraic : Cert.algebraic_KernelIdeal_ReferenceIdeal := by
  intro m ρ m' ρ' _ hagree
  refine ⟨_, Cert.Conv.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2.1,
    (hagree c).2.2.2.2]
  exact Cert.Conv.ref_out _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
